-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S4096 : Shape := ⟨1, ![4096]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x4096x4096 .f32) (main_arg1 : FVec F S4096 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8x4096x4096 : Shape := ⟨3, ![8, 4096, 4096]⟩
abbrev S4096 : Shape := ⟨1, ![4096]⟩
abbrev S1x4096 : Shape := ⟨2, ![1, 4096]⟩
abbrev S1x512x4096 : Shape := ⟨3, ![1, 512, 4096]⟩
abbrev S1x1x4096 : Shape := ⟨3, ![1, 1, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8x4096x4096, .f32⟩
  | .hbm, ⟨1, _⟩ => ⟨S4096, .f32⟩
  | .hbm, ⟨2, _⟩ => ⟨S1x4096, .f32⟩
  | .hbm, ⟨3, _⟩ => ⟨S8x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x512x4096, .f32⟩
  | .local _ .vmem, ⟨4, _⟩ => ⟨S1x512x4096, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S1x4096_S1x1x4096 : S1x4096.ShapeCasts S1x1x4096
  inb_S1x512x4096_S1x512x4096_0_0_0 : ∀ a, (![0, 0, 0] : Fin 3 → Nat) a + S1x512x4096.size a ≤ S1x512x4096.size a
  h_S1x512x4096 : 0 < S1x512x4096.numel
  broadcasts_S1x1x4096_S1x512x4096 : S1x1x4096.Broadcasts S1x512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x4096x4096.size a
  hwx0_0 : ∀ i : grid0.Coords, EltTy.bits .f32 = 32 ∨ (Rect.block (s := S8x4096x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S8x4096x4096.size a
  hwx0_2 : ∀ i : grid0.Coords, EltTy.bits .f32 = 32 ∨ (Rect.block (s := S8x4096x4096) S1x512x4096.size (cc0_transform_2 i) (hinb0_2 i)).WholeWords (EltTy.packing .f32)

variable [Facts₀]

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S8x4096x4096 : Shape := ⟨3, ![8, 4096, 4096]⟩
abbrev S4096 : Shape := ⟨1, ![4096]⟩
abbrev S1x1x4096 : Shape := ⟨3, ![1, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096, .f32⟩
  | .hbm, ⟨2, _⟩ => ⟨S1x1x4096, .f32⟩
  | .hbm, ⟨3, _⟩ => ⟨S8x4096x4096, .f32⟩
  | .hbm, ⟨4, _⟩ => ⟨S8x4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x4096x4096_0_1_2 : S1x1x4096.BroadcastsInDim S8x4096x4096 (![0, 1, 2] : Fin 3 → Fin S8x4096x4096.rank)

variable [Facts₀]

class Facts : Prop extends Facts₀ where

variable [Facts]
-- ==== Proof.ColumnScale.lean ====
/-
  The function both programs compute. `x` is an array of 8 matrices of 4096 rows and 4096 columns and
  `d` a vector of 4096 entries; the result has `x`'s shape, and its entry in matrix `b`, row `r`,
  column `k` is the product `x[b, r, k] * d[k]`: every column `k` of every matrix is scaled by the
  `k`-th entry of `d` (the product of each matrix with the diagonal matrix whose diagonal is `d`).

  The product is the float type's own multiplication, with `x`'s entry on the left, and nothing else is
  done to either factor. So the definition makes sense for any float type, the extended reals among them,
  and no law of multiplication is ever needed to compare two programs that both compute it this way.
-/
import Idealize.ShloMosaic.PureOps.Ideal

noncomputable section

namespace Cert.ColumnScale

open Idealize.ShloMosaic

variable {F : FTy → Type} [FloatOps F]

/-- The shape of `x` and of the result: 8 matrices, 4096 rows, 4096 columns. -/
abbrev Batch : Shape := ⟨3, ![8, 4096, 4096]⟩
/-- The shape of the diagonal `d`: 4096 entries. -/
abbrev Diag : Shape := ⟨1, ![4096]⟩

/-- The position in `d` that an entry of the array meets: its column. -/
def column (i : Batch.Idx) : Diag.Idx := fun a => match a with
  | ⟨0, _⟩ => ⟨(i 2).val, (i 2).isLt⟩

/-- The column's number is the entry's last coordinate. -/
theorem column_val (i : Batch.Idx) : (column i 0).val = (i 2).val := rfl

/-- Every entry of `x` times the entry of `d` at its column. -/
def scaled (x : Batch.Idx → Elt F .f32) (d : Diag.Idx → Elt F .f32) : Batch.Idx → Elt F .f32 :=
  fun i => FloatOps.mulf (x i) (d (column i))

theorem scaled_apply (x : Batch.Idx → Elt F .f32) (d : Diag.Idx → Elt F .f32) (i : Batch.Idx) :
    scaled x d i = FloatOps.mulf (x i) (d (column i)) := rfl

end Cert.ColumnScale

end
-- ==== Proof.ReferenceScales.lean ====
/-
  The reference computes the column scaling. It copies `d` along two new leading axes of length one,
  then repeats that over the 8 matrices and the 4096 rows, and multiplies `x` by the result entry by
  entry. Repeating a vector along new axes does not change which entry of `d` sits over column `k`:
  read at matrix `b`, row `r`, column `k`, the repeated array holds `d[k]`. So the product at
  that position is `x[b, r, k] * d[k]`.
-/
import proofs.«106030_j16544214024205_2_alg».proof.Proof.Gen.ReferenceIdeal.Read
import proofs.«106030_j16544214024205_2_alg».proof.Proof.ColumnScale

noncomputable section

namespace Cert.ReferenceIdeal.Scales

open Cert.ReferenceIdeal Cert.ReferenceIdeal.Read Cert.ColumnScale Idealize.ShloMosaic

variable {F : FTy → Type} [FloatOps F]

/-- Through both repetitions, position `(b, r, k)` of the repeated array reads `d` at column `k`. -/
theorem repeated_reads_column (i : S8x4096x4096.Idx) : idx_main_v0 (idx_main_v1 i) = column i :=
  funext fun a => Fin.ext (by match a with | ⟨0, _⟩ => rfl)

/-- The reference's result, as a function of its two arguments, is the column scaling. -/
theorem result_eq (x : (⟨S8x4096x4096, .f32⟩ : BufTy).Contents (Elt F)) (d : (⟨S4096, .f32⟩ : BufTy).Contents (Elt F)) :
    val_main_v2 (F := F) x d = scaled x d := by
  funext i
  rw [val_main_v2_apply, val_main_v1_apply, val_main_v0_apply, repeated_reads_column, scaled_apply]

end Cert.ReferenceIdeal.Scales

end
-- ==== Proof.BlockProduct.lean ====
/-
  What the kernel does at one grid point. The grid has 8 x 8 points; point `(b, s)` works on the slab of
  `x` made of matrix `b`, rows `512 s` to `512 s + 511`, all 4096 columns. Beside it the kernel is
  given `d` laid out as a single row of 4096 entries (a matrix with one row), the same row at every point.
  The kernel gives that row two leading axes of length one, repeats it down the 512 rows of the slab, and
  multiplies the slab by it entry by entry. So the entry of the result slab at row `r` and column `k` is
  the slab's entry there times the `k`-th entry of the row.

  Two facts are proved here. First, that entry-wise reading of the result slab, for any slab and any row.
  Second, that the row the kernel is given holds `d`: laying a vector of 4096 entries out as a 1 x 4096
  matrix puts entry `k` of the vector at row 0, column `k`.
-/
import proofs.«106030_j16544214024205_2_alg».proof.Proof.Gen.KernelIdeal.Value
import Idealize.ShloMosaic.Lib.StableHlo.Run

noncomputable section

namespace Cert.KernelIdeal.Scales

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The corner of a slab, written as three zeros, is the all-zero offset. -/
theorem corner3 : (![0, 0, 0] : Fin 3 → Nat) = fun _ => 0 := funext fun a => by fin_cases a <;> rfl
/-- The corner of the row, written as two zeros, is the all-zero offset. -/
theorem corner2 : (![0, 0] : Fin 2 → Nat) = fun _ => 0 := funext fun a => by fin_cases a <;> rfl

/-- The result slab, entry by entry: at position `y` it is the slab's entry at `y` (`Value.ix2_0 y`)
    times the row's entry at `y`'s column (`Value.ix2_1 y`). The kernel reads the whole slab and the whole
    row, and writes the whole result slab in one store, so nothing but that product is left in it. -/
theorem block_product (slab : Vec F S1x512x4096 .f32) (row : Vec F S1x4096 .f32) (y : S1x512x4096.Idx) :
    out0_2 slab row y = FloatOps.mulf (slab (Value.ix2_0 y)) (row (Value.ix2_1 y)) := by
  unfold out0_2
  rw [Value.canon2_eq]
  show FloatOps.mulf (View.ld slab r0_1 (Value.ix2_0 y)) (View.ld row r0_0 (Value.ix2_1 y)) = _
  rw [View.ld_unit_zero (S := S1x512x4096) corner3, View.ld_unit_zero (S := S1x4096) corner2]

/-- The entry of the vector that sits at position `y` of its one-row layout: the one numbered by `y`'s column. -/
abbrev entryUnder (y : S1x4096.Idx) : S4096.Idx := fun a => match a with
  | ⟨0, _⟩ => ⟨(y 1).val, (y 1).isLt⟩

/-- Laying a vector out as one row keeps the order of its entries: counting positions row by row, position
    `(0, k)` of the row is the `k`-th, as entry `k` of the vector is. -/
theorem row_of_vector (d : S4096.Idx → Elt F .f32) (y : S1x4096.Idx) :
    shapeCast S1x4096 d shapeCasts_S4096_S1x4096 y = d (entryUnder y) := by
  refine shapeCast_apply _ _ y _ ?_
  rw [Shape.rowMajor_val_one, Shape.rowMajor_val_two]
  show (y 1).val = (y 0).val * 4096 + (y 1).val
  have h0 : (y 0).val < 1 := (y 0).isLt
  omega

/-- The row the kernel is given, when the grid starts, holds the second argument: before the grid the
    program lays that argument out as one row and does nothing else to it. -/
theorem given_row (c : Dev nD) (y : S1x4096.Idx) :
    V m c main_v0 y = m ((c : Thread nD τ).loc main_arg1) (entryUnder y) := by
  have e : (V m c main_v0 : S1x4096.Idx → Elt F .f32)
      = shapeCast S1x4096 (m ((c : Thread nD τ).loc main_arg1)) shapeCasts_S4096_S1x4096 := by
    dsimp only [V, hostOps0]; after_results; rfl
  rw [e]
  exact row_of_vector (F := F) (m ((c : Thread nD τ).loc main_arg1)) y

end Cert.KernelIdeal.Scales

end
-- ==== Proof.KernelScales.lean ====
/-
  The kernel computes the column scaling. Each of the 64 grid points `(b, s)` writes one slab of the
  result: matrix `b`, rows `512 s` to `512 s + 511`, all columns. Three things are shown.

  1. What a point writes is the matching slab of the column scaling of the two arguments. The slab of
     `x` the point reads sits at the same place in `x` as the slab it writes sits in the result, so
     the entry at row `r`, column `k` of the written slab is `x[b, 512 s + r, k]` times the `k`-th
     entry of the row the kernel is given, and that row holds `d`.
  2. The 64 slabs cover the result: the entry at matrix `b`, row `r` lies in the slab of the point
     `(b, r / 512)`, because `512 (r / 512) ≤ r < 512 (r / 512) + 512`.
  3. So when the grid is done the whole result array is the column scaling, and the two arguments are as
     they were.
-/
import proofs.«106030_j16544214024205_2_alg».proof.Proof.BlockProduct
import proofs.«106030_j16544214024205_2_alg».proof.Proof.ColumnScale
import Idealize.ShloMosaic.Lib.Pipeline.Value

noncomputable section

namespace Cert.KernelIdeal.Scales

open Cert.KernelIdeal Cert.KernelIdeal.Gen Cert.ColumnScale Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Where the slabs sit, checked at each of the 64 points: the slab read from `x` and the slab written
    have the same matrix number and the same row-block number; both span all columns (column-block 0); and
    the given row is always the one row there is (block 0 on both its axes). -/
theorem slab_places : ∀ t : Fin cfg0.N,
    win0_0.index t (0 : Fin 3) = win0_2.index t (0 : Fin 3)
    ∧ win0_0.index t (1 : Fin 3) = win0_2.index t (1 : Fin 3)
    ∧ win0_0.index t (2 : Fin 3) = 0 ∧ win0_2.index t (2 : Fin 3) = 0
    ∧ win0_1.index t (0 : Fin 2) = 0 ∧ win0_1.index t (1 : Fin 2) = 0 :=
  (by decide +kernel : ∀ t : Fin grid0.N, _)

/-- Every pair of a matrix number `b` and a row-block number `s` is some point's written slab. -/
theorem slab_of : ∀ (b : Fin 8) (s : Fin 8), ∃ t : Fin cfg0.N, win0_2.index t = ![b.val, s.val, 0] :=
  (by decide +kernel : ∀ (b : Fin 8) (s : Fin 8), ∃ t : Fin grid0.N, win0_2.index t = ![b.val, s.val, 0])

/-- What point `t` writes back is slab `t` of the column scaling of the two arguments. -/
theorem written_slab (c : Dev nD) (t : Fin cfg0.N) :
    (dats m 0 c).flushed 2 t = ((cfg0.win 2).blk t).view.read (Elt F)
      (scaled (m ((c : Thread nD τ).loc main_arg0)) (m ((c : Thread nD τ).loc main_arg1))) := by
  rw [Value.flushed2]
  obtain ⟨e0, e1, e2, e3, e4, e5⟩ := slab_places t
  funext j
  show out0_2 (iblk m c 0 t) (iblk m c 1 t) j
    = scaled (m ((c : Thread nD τ).loc main_arg0)) (m ((c : Thread nD τ).loc main_arg1)) (((cfg0.win 2).blk t).view.emb j)
  refine (block_product (F := F) (iblk m c 0 t) (iblk m c 1 t) j).trans ?_
  rw [scaled_apply]
  have hj0 : (j 0).val < 1 := (j 0).isLt
  -- the slab of `x`, read at `j`, is `x` read where `j` sits in the written slab
  have hx : iblk m c 0 t (Value.ix2_0 j) = m ((c : Thread nD τ).loc main_arg0) (((cfg0.win 2).blk t).view.emb j) := by
    show V m c main_arg0 (((cfg0.win 0).blk t).view.emb (Value.ix2_0 j)) = _
    rw [V_main_arg0]
    congr 1; funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 4096 + 1 * (j 2).val = win0_2.index t (2 : Fin 3) * 4096 + 1 * (j 2).val; omega
  -- the given row, read at `j`'s column, is `d` at the column where `j` sits in the result
  have hd : iblk m c 1 t (Value.ix2_1 j) = m ((c : Thread nD τ).loc main_arg1) (column (((cfg0.win 2).blk t).view.emb j)) := by
    show V m c main_v0 (((cfg0.win 1).blk t).view.emb (Value.ix2_1 j)) = _
    rw [given_row]
    refine congrArg (m ((c : Thread nD τ).loc main_arg1)) (funext fun a => Fin.ext ?_)
    match a with
    | ⟨0, _⟩ => show win0_1.index t (1 : Fin 2) * 4096 + 1 * (j 2).val = win0_2.index t (2 : Fin 3) * 4096 + 1 * (j 2).val; omega
  rw [hx, hd]

/-- An entry of the result is in point `t`'s slab exactly when, on each axis, its coordinate is within
    the slab's extent from the slab's start. -/
theorem in_slab (t : Fin cfg0.N) (i : S8x4096x4096.Idx) :
    i ∈ ((cfg0.win 2).blk t).view.set ↔ ∀ a : Fin 3, win0_2.index t a * S1x512x4096.size a ≤ (i a).val
      ∧ (i a).val < win0_2.index t a * S1x512x4096.size a + S1x512x4096.size a := by
  show i ∈ ((View.whole main_v1).slice (win0_2.rect t)).set ↔ _
  rw [View.set_slice_whole, Rect.mem_set_unit]
  exact Iff.rfl

/-- Every entry of the result is written: matrix `b`, row `r` is in the slab of matrix `b`, row-block `r / 512`. -/
theorem every_entry_written (i : S8x4096x4096.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 4096 := (i 2).isLt
  obtain ⟨t, ht⟩ := slab_of ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [in_slab]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 4096 ≤ (i 2).val ∧ (i 2).val < win0_2.index t (2 : Fin 3) * 4096 + 4096; omega

/-- After the last point the result array is the column scaling of the two arguments. -/
theorem whole_result (c : Dev nD) : (dats m 0 c).arrAt 2 cfg0.N
    = scaled (m ((c : Thread nD τ).loc main_arg0)) (m ((c : Thread nD τ).loc main_arg1)) :=
  (dats m 0 c).arrAt_eq_of_cover 2 _ (fun t _ => written_slab m c t) every_entry_written

/-- Every run of the kernel ends with the result at the column scaling of its arguments, and the arguments
    unchanged. -/
theorem run : θ_run defs (onTc (τ := τ) (main (F := F))) ⟨m, fun _ => 0, ρ⟩ fun r => ∀ c : Dev nD,
      r.2.mem ((c : Thread nD τ).loc main_v1)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (whole_result m c), (h c).2⟩) (Value.run_blocks m ρ)

end Cert.KernelIdeal.Scales

end
-- ==== Proof.lean ====
/-
  Scaling the columns of a batch of matrices by a vector, computed two ways.

  The arguments are `x`, 8 matrices of 4096 rows and 4096 columns, and `d`, a vector of 4096 entries. The
  result has `x`'s shape and its entry in matrix `b`, row `r`, column `k` is `x[b, r, k] * d[k]`
  (Proof/ColumnScale.lean). That is the product of each matrix with the diagonal matrix whose diagonal is `d`.

  The reference repeats `d` over all matrices and rows and multiplies entry by entry
  (Proof/ReferenceScales.lean). The kernel cuts `x` into 64 slabs of 512 rows, multiplies each slab by `d`
  repeated down its rows, and writes the product into the same place of the result; the slabs cover the result
  (Proof/BlockProduct.lean, Proof/KernelScales.lean). Both multiply the same two numbers in the same order at
  every position, so the two results are equal entry by entry for every float type, and in particular over the
  extended reals, where an entry may be infinite: no property of multiplication is used, and the assumption
  that the inputs are finite is not needed for the equality.

  Each program also runs to the end without fault and leaves its arguments as they were. The kernel writes its
  result over a copy of `x`, never over `x` itself. The kernel read over the extended reals is the same text as
  the kernel read over machine words, no operation rewritten, so there is nothing to show for that step.
-/
import proofs.«106030_j16544214024205_2_alg».proof.Defs
import proofs.«106030_j16544214024205_2_alg».proof.Proof.Gen.Kernel
import proofs.«106030_j16544214024205_2_alg».proof.Proof.Gen.Kernel.Frame
import proofs.«106030_j16544214024205_2_alg».proof.Proof.Gen.KernelIdeal
import proofs.«106030_j16544214024205_2_alg».proof.Proof.Gen.KernelIdeal.Frame
import proofs.«106030_j16544214024205_2_alg».proof.Proof.Gen.KernelIdeal.Value
import proofs.«106030_j16544214024205_2_alg».proof.Proof.Gen.ReferenceIdeal
import proofs.«106030_j16544214024205_2_alg».proof.Proof.Gen.ReferenceIdeal.Run
import proofs.«106030_j16544214024205_2_alg».proof.Proof.Gen.ReferenceIdeal.Read
import proofs.«106030_j16544214024205_2_alg».proof.Proof.Gen.Pre_finite_inputs
import proofs.«106030_j16544214024205_2_alg».proof.Proof.ColumnScale
import proofs.«106030_j16544214024205_2_alg».proof.Proof.ReferenceScales
import proofs.«106030_j16544214024205_2_alg».proof.Proof.KernelScales
import Idealize.ShloMosaic.Adequacy
import Idealize.ShloMosaic.Init

noncomputable section

namespace Cert.Proof

open Idealize.ShloMosaic Idealize.SL.Sem

/-- The kernel over machine words runs to the end and keeps its arguments. -/
theorem frame_words : Cert.frame_Kernel := fun m ρ _ => Cert.Kernel.Gen.frame m ρ

/-- The kernel over the extended reals runs to the end and keeps its arguments. -/
theorem frame_reals : Cert.frame_KernelIdeal := fun m ρ _ => Cert.KernelIdeal.Gen.frame m ρ

/-- The reference runs to the end and keeps its arguments: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem same_text : Cert.preserves_Kernel_KernelIdeal := trivial

/-- From equal arguments the kernel and the reference end with equal results: both are the column scaling of
    the arguments. -/
theorem equal_results : Cert.algebraic_KernelIdeal_ReferenceIdeal := by
  intro m ρ m' ρ' _ hagree
  refine ⟨fun c => Cert.ColumnScale.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Scales.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.Scales.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_words, frame_reals, frame_reference, same_text, equal_results⟩

end Cert.Proof

end
